-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 52
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 62
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.RunValue.lean ====
/-
  The idealized kernel's run with its result named.  @main is four pipelined regions among three stretches of host
  operations; the buffer contents at each boundary are a fold from the launch memory, and the last boundary's
  contents at the result buffer are what every terminating execution leaves there.  This module states the run with
  that extra conjunct (the result buffer at the last boundary's contents) beside the unchanged arguments.
-/
import proofs.«177691_j21474836480022_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer holding the last boundary's
    contents and every argument array as launched. -/
theorem run : θ_run defs (onTc (τ := τ) (main (F := F))) ⟨m, fun _ => 0, ρ⟩ (fun r => ∀ c : Dev nD,
      r.2.mem ((c.tc : Thread nD τ).loc main_v34) = W7 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v34 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.Bodies.lean ====
/-
  The four kernel bodies read at an entry, at the ideal values (the extended reals).

  Each body stores one value computed from the blocks it loads.  The two linear bodies store the row-by-column
  product of a block of rows with the whole weight matrix (the change of float format on the way in is the identity
  here); the two epilogue bodies store, entry by entry, the aggregated value times the row's reciprocal degree plus
  the column's bias, the first of them clamped below at zero.
-/
import proofs.«177691_j21474836480022_1_alg».proof.Proof.Gen.KernelIdeal.Skeleton
import proofs.«177691_j21474836480022_1_alg».proof.Proof.LibDenseLayers
import Idealize.ShloMosaic.Lib.ValueIdx
import Idealize.ShloMosaic.Lib.ValueLayout
import Idealize.ShloMosaic.Lib.Pipeline.Value

noncomputable section

namespace Cert.KernelIdeal.Bodies

open Cert.KernelIdeal Cert.KernelIdeal.Gen
open Idealize.ShloMosaic Idealize.ShloMosaic.ValueIdx Idealize.ShloMosaic.DenseLayers

/-- The first linear body: entry (p, q) of the stored block is the sum over k of x(p, k) · w(k, q). -/
theorem linear1_apply (x : Vec Ideal S5000x128 .f32) (w : Vec Ideal S128x128 .f32) (p : Fin 5000) (q : Fin 128) :
    k0_pay1 (F := Ideal) x w (ix2 p q) = ∑ c : Fin 128, x (ix2 p c) * w (ix2 c q) := by
  unfold k0_pay1
  exact matmul_rowcol_zero_apply dot_S5000x128_S128x128_S5000x128_1_0_0_1_n_n_wf none
    (truncf .bf16 x bitsLt_bf16_f32) (truncf .bf16 w bitsLt_bf16_f32) p q

/-- The second linear body: entry (p, q) of the stored block is the sum over k of x(p, k) · w(k, q). -/
theorem linear2_apply (x : Vec Ideal S5000x128 .f32) (w : Vec Ideal S128x64 .f32) (p : Fin 5000) (q : Fin 64) :
    k2_pay1 (F := Ideal) x w (ix2 p q) = ∑ c : Fin 128, x (ix2 p c) * w (ix2 c q) := by
  unfold k2_pay1
  rw [shapeCast_self]
  exact matmul_rowcol_zero_apply dot_S5000x128_S128x64_S5000x64_1_0_0_1_n_n_wf none
    (truncf .bf16 x bitsLt_bf16_f32) (truncf .bf16 w bitsLt_bf16_f32) p q

/-- The first epilogue body: max(a(p, q) · d(p, 0) + b(0, q), 0). -/
theorem epilogue1_apply (a : Vec Ideal S5000x128 .f32) (d : Vec Ideal S5000x1 .f32) (b : Vec Ideal S1x128 .f32)
    (p : Fin 5000) (q : Fin 128) :
    k1_pay1 (F := Ideal) a d b (ix2 p q)
      = max (a (ix2 p q) * d (ix2 p (0 : Fin 1)) + b (ix2 (0 : Fin 1) q)) (Ideal.ofBits .f32 0x00000000#32) := by
  unfold k1_pay1
  simp only [shapeCast_self]
  show max (a (ix2 p q) * broadcastTo S5000x128 d broadcasts_S5000x1_S5000x128 (ix2 p q)
      + broadcastTo S5000x128 b broadcasts_S1x128_S5000x128 (ix2 p q)) _ = _
  rw [broadcastTo_column_apply, broadcastTo_1b_ab_apply]
  rfl

/-- The second epilogue body: a(p, q) · d(p, 0) + b(0, q). -/
theorem epilogue2_apply (a : Vec Ideal S5000x64 .f32) (d : Vec Ideal S5000x1 .f32) (b : Vec Ideal S1x64 .f32)
    (p : Fin 5000) (q : Fin 64) :
    k3_pay1 (F := Ideal) a d b (ix2 p q) = a (ix2 p q) * d (ix2 p (0 : Fin 1)) + b (ix2 (0 : Fin 1) q) := by
  unfold k3_pay1
  simp only [shapeCast_self]
  show a (ix2 p q) * broadcastTo S5000x64 d broadcasts_S5000x1_S5000x64 (ix2 p q)
      + broadcastTo S5000x64 b broadcasts_S1x64_S5000x64 (ix2 p q) = _
  rw [broadcastTo_column_apply, broadcastTo_1b_ab_apply]

end Cert.KernelIdeal.Bodies

end
-- ==== Proof.Linear1.lean ====
/-
  The first linear layer, from blocks to the whole array.

  The node features are cut into twenty blocks of 5000 rows; the weight matrix is resident whole.  Grid point t loads
  rows 5000·t … 5000·t + 4999 of the features, multiplies them by the weights and writes the product back as the same
  rows of the result.  The blocks written back tile the result, so after the last point the result array is, at every
  entry (r, q), the sum over k of X(r, k) · W(k, q) — whatever the region finds in its two input arrays.
-/
import proofs.«177691_j21474836480022_1_alg».proof.Proof.Gen.KernelIdeal.Frame
import proofs.«177691_j21474836480022_1_alg».proof.Proof.Bodies
import Idealize.ShloMosaic.Lib.Pipeline.Value
import Idealize.ShloMosaic.Lib.ValueIdx

set_option maxRecDepth 16384

noncomputable section

namespace Cert.KernelIdeal.Linear1

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a matrix of node rows with a weight matrix, entry by entry. -/
def product (X : S100000x128.Idx → EReal) (W : S128x128.Idx → EReal) : S100000x128.Idx → EReal :=
  fun i => ∑ k : Fin 128, X (ix2 (⟨(i 0).val, (i 0).isLt⟩ : Fin 100000) k) * W (ix2 k (⟨(i 1).val, (i 1).isLt⟩ : Fin 128))

/-- The printed index maps over the grid: the row windows sit at block (t, 0), the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 5000·t … of the feature array. -/
theorem rows_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = V c main_arg0 k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight window's block at every point is the whole weight array. -/
theorem weights_apply (c : Dev nD) (t : Fin cfg0.N) (x : S128x128.Idx) :
    (iblk0 V c 1 t : Vec Ideal S128x128 .f32) x = V c main_arg3 x := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- What point t writes back is block t of the product of the arrays the region finds. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e0, e1⟩ := idx_facts t
  funext j
  obtain ⟨p, q, rfl⟩ : ∃ (p : Fin 5000) (q : Fin 128), j = ix2 p q := ⟨j 0, j 1, eq_ix2 j⟩
  refine (linear1_apply (iblk0 V c 0 t) (iblk0 V c 1 t) p q).trans ?_
  show _ = product (V c main_arg0) (V c main_arg3) (((cfg0.win 2).blk t).view.emb (ix2 p q))
  unfold product
  refine Finset.sum_congr rfl fun k _ => ?_
  rw [rows_apply V c t (ix2 p k) (ix2 (⟨((((cfg0.win 2).blk t).view.emb (ix2 p q)) 0).val, ((((cfg0.win 2).blk t).view.emb (ix2 p q)) 0).isLt⟩ : Fin 100000) k)
      (by show win0_2.index t 0 * 5000 + 1 * p.val = 5000 * t.val + p.val; rw [e0]; omega) rfl,
    weights_apply V c t (ix2 k q)]
  congr 2
  funext a
  apply Fin.ext
  match a with
  | ⟨0, _⟩ => rfl
  | ⟨1, _⟩ => show q.val = win0_2.index t 1 * 128 + 1 * q.val; rw [e1]; omega

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v9).slice (win0_2.rect t)).set ↔ _
  rw [View.set_slice_whole, Rect.mem_set_unit]
  exact Iff.rfl

/-- Every entry of the result is written back by the point its row falls into. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; rw [hN]; omega
  obtain ⟨-, -, -, -, e0, e1⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val ∧ (i 1).val < win0_2.index ⟨(i 0).val / 5000, ht⟩ 1 * 128 + 128
    rw [e1]; omega

/-- After the last point the result array is the product of the two arrays the region found. -/
theorem final (c : Dev nD) : (dat0 V c).arrAt 2 cfg0.N = product (V c main_arg0) (V c main_arg3) :=
  (dat0 V c).arrAt_eq_of_cover 2 (product (V c main_arg0) (V c main_arg3)) (fun t _ => flushed_eq V c t) cover

end Cert.KernelIdeal.Linear1

end
-- ==== Proof.Linear2.lean ====
/-
  The second linear layer, from blocks to the whole array.

  The hidden node rows are cut into twenty blocks of 5000 rows; the second weight matrix is resident whole.  Grid point
  t loads rows 5000·t … 5000·t + 4999 of the hidden array, multiplies them by the weights and writes the product back
  as the same rows of the result.  The blocks written back tile the result, so after the last point the result array
  is, at every entry (r, q), the sum over k of H(r, k) · W(k, q) — whatever the region finds in its two input arrays.
-/
import proofs.«177691_j21474836480022_1_alg».proof.Proof.Gen.KernelIdeal.Frame
import proofs.«177691_j21474836480022_1_alg».proof.Proof.Bodies
import Idealize.ShloMosaic.Lib.Pipeline.Value
import Idealize.ShloMosaic.Lib.ValueIdx

set_option maxRecDepth 16384

noncomputable section

namespace Cert.KernelIdeal.Linear2

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a matrix of hidden node rows with the second weight matrix, entry by entry. -/
def product (X : S100000x128.Idx → EReal) (W : S128x64.Idx → EReal) : S100000x64.Idx → EReal :=
  fun i => ∑ k : Fin 128, X (ix2 (⟨(i 0).val, (i 0).isLt⟩ : Fin 100000) k) * W (ix2 k (⟨(i 1).val, (i 1).isLt⟩ : Fin 64))

/-- The printed index maps over the grid: the row windows sit at block (t, 0), the weights at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The hidden window's block at point t is rows 5000·t … of the hidden array. -/
theorem rows_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = V c main_v21 k := by
  obtain ⟨e0, e1, -⟩ := idx_facts t
  unfold iblk2
  rw [View.read_apply]
  show V c main_v21 _ = V c main_v21 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The weight window's block at every point is the whole weight array. -/
theorem weights_apply (c : Dev nD) (t : Fin cfg2.N) (x : S128x64.Idx) :
    (iblk2 V c 1 t : Vec Ideal S128x64 .f32) x = V c main_arg5 x := by
  obtain ⟨-, -, e0, e1, -⟩ := idx_facts t
  unfold iblk2
  rw [View.read_apply]
  show V c main_arg5 _ = V c main_arg5 _
  congr 1
  funext a
  apply Fin.ext
  match a with
  | ⟨0, _⟩ => show win2_1.index t 0 * 128 + 1 * (x 0).val = (x 0).val; rw [e0]; omega
  | ⟨1, _⟩ => show win2_1.index t 1 * 64 + 1 * (x 1).val = (x 1).val; rw [e1]; omega

/-- What point t writes back is block t of the product of the arrays the region finds. -/
theorem flushed_eq (c : Dev nD) (t : Fin cfg2.N) :
    (dat2 V c).flushed 2 t = ((cfg2.win 2).blk t).view.read (Elt Ideal) (product (V c main_v21) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨-, -, -, -, e0, e1⟩ := idx_facts t
  funext j
  obtain ⟨p, q, rfl⟩ : ∃ (p : Fin 5000) (q : Fin 64), j = ix2 p q := ⟨j 0, j 1, eq_ix2 j⟩
  refine (linear2_apply (iblk2 V c 0 t) (iblk2 V c 1 t) p q).trans ?_
  show _ = product (V c main_v21) (V c main_arg5) (((cfg2.win 2).blk t).view.emb (ix2 p q))
  unfold product
  refine Finset.sum_congr rfl fun k _ => ?_
  rw [rows_apply V c t (ix2 p k) (ix2 (⟨((((cfg2.win 2).blk t).view.emb (ix2 p q)) 0).val, ((((cfg2.win 2).blk t).view.emb (ix2 p q)) 0).isLt⟩ : Fin 100000) k)
      (by show win2_2.index t 0 * 5000 + 1 * p.val = 5000 * t.val + p.val; rw [e0]; omega) rfl,
    weights_apply V c t (ix2 k q)]
  congr 2
  funext a
  apply Fin.ext
  match a with
  | ⟨0, _⟩ => rfl
  | ⟨1, _⟩ => show q.val = win2_2.index t 1 * 64 + 1 * q.val; rw [e1]; omega

/-- An index of the result is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v22).slice (win2_2.rect t)).set ↔ _
  rw [View.set_slice_whole, Rect.mem_set_unit]
  exact Iff.rfl

/-- Every entry of the result is written back by the point its row falls into. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  have ht : (i 0).val / 5000 < cfg2.N := by show (i 0).val / 5000 < grid2.N; rw [hN]; omega
  obtain ⟨-, -, -, -, e0, e1⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_2.index ⟨(i 0).val / 5000, ht⟩ 1 * 64 ≤ (i 1).val ∧ (i 1).val < win2_2.index ⟨(i 0).val / 5000, ht⟩ 1 * 64 + 64
    rw [e1]; omega

/-- After the last point the result array is the product of the two arrays the region found. -/
theorem final (c : Dev nD) : (dat2 V c).arrAt 2 cfg2.N = product (V c main_v21) (V c main_arg5) :=
  (dat2 V c).arrAt_eq_of_cover 2 (product (V c main_v21) (V c main_arg5)) (fun t _ => flushed_eq V c t) cover

end Cert.KernelIdeal.Linear2

end
-- ==== Proof.Epilogue1.lean ====
/-
  The first layer's epilogue, from blocks to the whole array.

  The aggregated array is cut into twenty blocks of 5000 rows and so is the column of reciprocal degrees; the bias row
  is resident whole.  Grid point t loads rows 5000·t … 5000·t + 4999 of both, computes entry by entry the aggregated
  value times its row's reciprocal degree plus its column's bias, clamps it below at zero, and writes the block back as the same rows of
  the result.  The blocks written back tile the result, so after the last point the result array is that function of
  the three arrays the region finds, at every entry.
-/
import proofs.«177691_j21474836480022_1_alg».proof.Proof.Gen.KernelIdeal.Frame
import proofs.«177691_j21474836480022_1_alg».proof.Proof.Bodies
import Idealize.ShloMosaic.Lib.Pipeline.Value
import Idealize.ShloMosaic.Lib.ValueIdx

set_option maxRecDepth 16384

noncomputable section

namespace Cert.KernelIdeal.Epilogue1

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Normalize by the row's reciprocal degree, add the column's bias and clamp below at zero, entry by entry. -/
def normalized (A : S100000x128.Idx → EReal) (D : S100000x1.Idx → EReal) (B : S1x128.Idx → EReal) : S100000x128.Idx → EReal :=
  fun i => max (A i * D (ix2 (⟨(i 0).val, (i 0).isLt⟩ : Fin 100000) (0 : Fin 1))
    + B (ix2 (0 : Fin 1) (⟨(i 1).val, (i 1).isLt⟩ : Fin 128))) (Ideal.ofBits .f32 0x00000000#32)

/-- The printed index maps over the grid: the row windows sit at block (t, 0), the bias at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregated window's block at point t is rows 5000·t … of the aggregated array. -/
theorem rows_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = V c main_v19 k := by
  obtain ⟨e0, e1, -⟩ := idx_facts t
  unfold iblk1
  rw [View.read_apply]
  show V c main_v19 _ = V c main_v19 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The degree window's block at point t is rows 5000·t … of the column of reciprocal degrees. -/
theorem degrees_apply (c : Dev nD) (t : Fin cfg1.N) (x : S5000x1.Idx) (k : S100000x1.Idx)
    (hk0 : (k 0).val = 5000 * t.val + (x 0).val) (hk1 : (k 1).val = (x 1).val) :
    (iblk1 V c 1 t : Vec Ideal S5000x1 .f32) x = V c main_v8 k := by
  obtain ⟨-, -, e0, e1, -⟩ := idx_facts t
  unfold iblk1
  rw [View.read_apply]
  show V c main_v8 _ = V c main_v8 _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The bias window's block at every point is the whole bias row. -/
theorem bias_apply (c : Dev nD) (t : Fin cfg1.N) (x : S1x128.Idx) (k : S1x128.Idx)
    (hk0 : (k 0).val = (x 0).val) (hk1 : (k 1).val = (x 1).val) :
    (iblk1 V c 2 t : Vec Ideal S1x128 .f32) x = V c main_v20 k := by
  obtain ⟨-, -, -, -, e0, e1, -⟩ := idx_facts t
  unfold iblk1
  rw [View.read_apply]
  show V c main_v20 _ = V c main_v20 _
  congr 1
  funext a
  apply Fin.ext
  match a with
  | ⟨0, _⟩ => show win1_2.index t 0 * 1 + 1 * (x 0).val = (k 0).val; rw [e0, hk0]; omega
  | ⟨1, _⟩ => show win1_2.index t 1 * 128 + 1 * (x 1).val = (k 1).val; rw [e1, hk1]; omega

/-- What point t writes back is block t of the normalized array of the arrays the region finds. -/
theorem flushed_eq (c : Dev nD) (t : Fin cfg1.N) :
    (dat1 V c).flushed 3 t = ((cfg1.win 3).blk t).view.read (Elt Ideal) (normalized (V c main_v19) (V c main_v8) (V c main_v20)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨-, -, -, -, -, -, e0, e1⟩ := idx_facts t
  funext j
  obtain ⟨p, q, rfl⟩ : ∃ (p : Fin 5000) (q : Fin 128), j = ix2 p q := ⟨j 0, j 1, eq_ix2 j⟩
  refine (epilogue1_apply (iblk1 V c 0 t) (iblk1 V c 1 t) (iblk1 V c 2 t) p q).trans ?_
  show _ = normalized (V c main_v19) (V c main_v8) (V c main_v20) (((cfg1.win 3).blk t).view.emb (ix2 p q))
  unfold normalized
  have h0 : ((((cfg1.win 3).blk t).view.emb (ix2 p q)) 0).val = 5000 * t.val + p.val := by
    show win1_3.index t 0 * 5000 + 1 * p.val = 5000 * t.val + p.val; rw [e0]; omega
  have h1 : ((((cfg1.win 3).blk t).view.emb (ix2 p q)) 1).val = q.val := by
    show win1_3.index t 1 * 128 + 1 * q.val = q.val; rw [e1]; omega
  rw [rows_apply V c t (ix2 p q) (((cfg1.win 3).blk t).view.emb (ix2 p q)) h0 h1,
    degrees_apply V c t (ix2 p (0 : Fin 1))
      (ix2 (⟨((((cfg1.win 3).blk t).view.emb (ix2 p q)) 0).val, ((((cfg1.win 3).blk t).view.emb (ix2 p q)) 0).isLt⟩ : Fin 100000) (0 : Fin 1)) h0 rfl,
    bias_apply V c t (ix2 (0 : Fin 1) q)
      (ix2 (0 : Fin 1) (⟨((((cfg1.win 3).blk t).view.emb (ix2 p q)) 1).val, ((((cfg1.win 3).blk t).view.emb (ix2 p q)) 1).isLt⟩ : Fin 128)) rfl h1]

/-- An index of the result is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v21).slice (win1_3.rect t)).set ↔ _
  rw [View.set_slice_whole, Rect.mem_set_unit]
  exact Iff.rfl

/-- Every entry of the result is written back by the point its row falls into. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  obtain ⟨-, -, -, -, -, -, e0, e1⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ 1 * 128 ≤ (i 1).val ∧ (i 1).val < win1_3.index ⟨(i 0).val / 5000, ht⟩ 1 * 128 + 128
    rw [e1]; omega

/-- After the last point the result array is the normalized array of the three arrays the region found. -/
theorem final (c : Dev nD) : (dat1 V c).arrAt 3 cfg1.N = normalized (V c main_v19) (V c main_v8) (V c main_v20) :=
  (dat1 V c).arrAt_eq_of_cover 3 (normalized (V c main_v19) (V c main_v8) (V c main_v20)) (fun t _ => flushed_eq V c t) cover

end Cert.KernelIdeal.Epilogue1

end
-- ==== Proof.Epilogue2.lean ====
/-
  The second layer's epilogue, from blocks to the whole array.

  The aggregated array is cut into twenty blocks of 5000 rows and so is the column of reciprocal degrees; the bias row
  is resident whole.  Grid point t loads rows 5000·t … 5000·t + 4999 of both, computes entry by entry the aggregated
  value times its row's reciprocal degree plus its column's bias and writes the block back as the same rows of
  the result.  The blocks written back tile the result, so after the last point the result array is that function of
  the three arrays the region finds, at every entry.
-/
import proofs.«177691_j21474836480022_1_alg».proof.Proof.Gen.KernelIdeal.Frame
import proofs.«177691_j21474836480022_1_alg».proof.Proof.Bodies
import Idealize.ShloMosaic.Lib.Pipeline.Value
import Idealize.ShloMosaic.Lib.ValueIdx

set_option maxRecDepth 16384

noncomputable section

namespace Cert.KernelIdeal.Epilogue2

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Normalize by the row's reciprocal degree and add the column's bias, entry by entry. -/
def normalized (A : S100000x64.Idx → EReal) (D : S100000x1.Idx → EReal) (B : S1x64.Idx → EReal) : S100000x64.Idx → EReal :=
  fun i => A i * D (ix2 (⟨(i 0).val, (i 0).isLt⟩ : Fin 100000) (0 : Fin 1))
    + B (ix2 (0 : Fin 1) (⟨(i 1).val, (i 1).isLt⟩ : Fin 64))

/-- The printed index maps over the grid: the row windows sit at block (t, 0), the bias at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The aggregated window's block at point t is rows 5000·t … of the aggregated array. -/
theorem rows_apply (c : Dev nD) (t : Fin cfg3.N) (x : S5000x64.Idx) (k : S100000x64.Idx)
    (hk0 : (k 0).val = 5000 * t.val + (x 0).val) (hk1 : (k 1).val = (x 1).val) :
    (iblk3 V c 0 t : Vec Ideal S5000x64 .f32) x = V c main_v32 k := by
  obtain ⟨e0, e1, -⟩ := idx_facts t
  unfold iblk3
  rw [View.read_apply]
  show V c main_v32 _ = V c main_v32 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- The degree window's block at point t is rows 5000·t … of the column of reciprocal degrees. -/
theorem degrees_apply (c : Dev nD) (t : Fin cfg3.N) (x : S5000x1.Idx) (k : S100000x1.Idx)
    (hk0 : (k 0).val = 5000 * t.val + (x 0).val) (hk1 : (k 1).val = (x 1).val) :
    (iblk3 V c 1 t : Vec Ideal S5000x1 .f32) x = V c main_v8 k := by
  obtain ⟨-, -, e0, e1, -⟩ := idx_facts t
  unfold iblk3
  rw [View.read_apply]
  show V c main_v8 _ = V c main_v8 _
  congr 1
  funext a
  apply Fin.ext
  match a with
  | ⟨0, _⟩ => show win3_1.index t 0 * 5000 + 1 * (x 0).val = (k 0).val; rw [e0, hk0]; omega
  | ⟨1, _⟩ => show win3_1.index t 1 * 1 + 1 * (x 1).val = (k 1).val; rw [e1, hk1]; omega

/-- The bias window's block at every point is the whole bias row. -/
theorem bias_apply (c : Dev nD) (t : Fin cfg3.N) (x : S1x64.Idx) (k : S1x64.Idx)
    (hk0 : (k 0).val = (x 0).val) (hk1 : (k 1).val = (x 1).val) :
    (iblk3 V c 2 t : Vec Ideal S1x64 .f32) x = V c main_v33 k := by
  obtain ⟨-, -, -, -, e0, e1, -⟩ := idx_facts t
  unfold iblk3
  rw [View.read_apply]
  show V c main_v33 _ = V c main_v33 _
  congr 1
  funext a
  apply Fin.ext
  match a with
  | ⟨0, _⟩ => show win3_2.index t 0 * 1 + 1 * (x 0).val = (k 0).val; rw [e0, hk0]; omega
  | ⟨1, _⟩ => show win3_2.index t 1 * 64 + 1 * (x 1).val = (k 1).val; rw [e1, hk1]; omega

/-- What point t writes back is block t of the normalized array of the arrays the region finds. -/
theorem flushed_eq (c : Dev nD) (t : Fin cfg3.N) :
    (dat3 V c).flushed 3 t = ((cfg3.win 3).blk t).view.read (Elt Ideal) (normalized (V c main_v32) (V c main_v8) (V c main_v33)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  obtain ⟨-, -, -, -, -, -, e0, e1⟩ := idx_facts t
  funext j
  obtain ⟨p, q, rfl⟩ : ∃ (p : Fin 5000) (q : Fin 64), j = ix2 p q := ⟨j 0, j 1, eq_ix2 j⟩
  refine (epilogue2_apply (iblk3 V c 0 t) (iblk3 V c 1 t) (iblk3 V c 2 t) p q).trans ?_
  show _ = normalized (V c main_v32) (V c main_v8) (V c main_v33) (((cfg3.win 3).blk t).view.emb (ix2 p q))
  unfold normalized
  have h0 : ((((cfg3.win 3).blk t).view.emb (ix2 p q)) 0).val = 5000 * t.val + p.val := by
    show win3_3.index t 0 * 5000 + 1 * p.val = 5000 * t.val + p.val; rw [e0]; omega
  have h1 : ((((cfg3.win 3).blk t).view.emb (ix2 p q)) 1).val = q.val := by
    show win3_3.index t 1 * 64 + 1 * q.val = q.val; rw [e1]; omega
  rw [rows_apply V c t (ix2 p q) (((cfg3.win 3).blk t).view.emb (ix2 p q)) h0 h1,
    degrees_apply V c t (ix2 p (0 : Fin 1))
      (ix2 (⟨((((cfg3.win 3).blk t).view.emb (ix2 p q)) 0).val, ((((cfg3.win 3).blk t).view.emb (ix2 p q)) 0).isLt⟩ : Fin 100000) (0 : Fin 1)) h0 rfl,
    bias_apply V c t (ix2 (0 : Fin 1) q)
      (ix2 (0 : Fin 1) (⟨((((cfg3.win 3).blk t).view.emb (ix2 p q)) 1).val, ((((cfg3.win 3).blk t).view.emb (ix2 p q)) 1).isLt⟩ : Fin 64)) rfl h1]

/-- An index of the result is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v34).slice (win3_3.rect t)).set ↔ _
  rw [View.set_slice_whole, Rect.mem_set_unit]
  exact Iff.rfl

/-- Every entry of the result is written back by the point its row falls into. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 20 := N_3
  have ht : (i 0).val / 5000 < cfg3.N := by show (i 0).val / 5000 < grid3.N; rw [hN]; omega
  obtain ⟨-, -, -, -, -, -, e0, e1⟩ := idx_facts ⟨(i 0).val / 5000, ht⟩
  refine ⟨⟨(i 0).val / 5000, ht⟩, flush3_3 _, ?_⟩
  rw [mem_blk]
  intro a
  match a with
  | ⟨0, _⟩ =>
    show win3_3.index ⟨(i 0).val / 5000, ht⟩ 0 * 5000 ≤ (i 0).val ∧ (i 0).val < win3_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ 1 * 64 ≤ (i 1).val ∧ (i 1).val < win3_3.index ⟨(i 0).val / 5000, ht⟩ 1 * 64 + 64
    rw [e1]; omega

/-- After the last point the result array is the normalized array of the three arrays the region found. -/
theorem final (c : Dev nD) : (dat3 V c).arrAt 3 cfg3.N = normalized (V c main_v32) (V c main_v8) (V c main_v33) :=
  (dat3 V c).arrAt_eq_of_cover 3 (normalized (V c main_v32) (V c main_v8) (V c main_v33)) (fun t _ => flushed_eq V c t) cover

end Cert.KernelIdeal.Epilogue2

end
-- ==== Proof.Bridge.lean ====
/-
  The reference's stages are the kernel's layers.

  At the ideal values the reference computes, stage by stage: a row-by-column product with the first weights; a
  gather of source rows summed into destination rows; that sum times the row's reciprocal degree plus the bias,
  clamped below at zero; a second product; a second gather and sum; and a second normalization.  The four stages a
  kernel region computes are read here at an entry and identified with the whole-array functions the regions leave:
  the host's contraction is the same finite sum as the block product, and the host's two broadcasts of the degree
  column and of the bias row read the same entries as the kernel's in-block broadcasts (the bias through a reshape of
  the vector to one row on the kernel's side, a broadcast to one row on the reference's).  The gathers and sums are
  never opened: both programs apply them, as the same operations, to equal arrays.
-/
import proofs.«177691_j21474836480022_1_alg».proof.Proof.Gen.ReferenceIdeal.Read
import proofs.«177691_j21474836480022_1_alg».proof.Proof.Linear1
import proofs.«177691_j21474836480022_1_alg».proof.Proof.Linear2
import proofs.«177691_j21474836480022_1_alg».proof.Proof.Epilogue1
import proofs.«177691_j21474836480022_1_alg».proof.Proof.Epilogue2
import Idealize.ShloMosaic.Lib.ValueIdx
import Idealize.ShloMosaic.Lib.ValueLayout

noncomputable section

namespace Cert.Bridge

open Cert.ReferenceIdeal.Read
open Idealize.ShloMosaic Idealize.ShloMosaic.ValueIdx

/-- The first product: the host's contraction of the features with the first weights is the block product's sum. -/
theorem product1_eq (x0 : (⟨Cert.ReferenceIdeal.S100000x128, .f32⟩ : BufTy).Contents (Elt Ideal)) (x3 : (⟨Cert.ReferenceIdeal.S128x128, .f32⟩ : BufTy).Contents (Elt Ideal)) :
    Cert.KernelIdeal.Linear1.product x0 x3 = val_main_v8 (F := Ideal) x0 x3 := by
  funext i
  rw [val_main_v8_apply]
  unfold Cert.KernelIdeal.Linear1.product
  refine Finset.sum_congr rfl fun k _ => ?_
  have el : lidx_main_v8 i k = ix2 (⟨(i 0).val, (i 0).isLt⟩ : Fin 100000) k :=
    funext fun a => by match a with | ⟨0, _⟩ => rfl | ⟨1, _⟩ => rfl
  have er : ridx_main_v8 i k = ix2 k (⟨(i 1).val, (i 1).isLt⟩ : Fin 128) :=
    funext fun a => by match a with | ⟨0, _⟩ => rfl | ⟨1, _⟩ => rfl
  rw [el, er]

/-- The first normalization: the reference's broadcasts read the degree of the row and the bias of the column. -/
theorem normalized1_eq (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) :
    Cert.KernelIdeal.Epilogue1.normalized (val_main_v18 (F := Ideal) x0 x1 x2 x3) (val_main_v19 (F := Ideal) x2)
        (shapeCast Cert.KernelIdeal.S1x128 x4 Cert.KernelIdeal.Gen.shapeCasts_S128_S1x128)
      = val_main_v25 (F := Ideal) x0 x1 x2 x3 x4 := by
  funext i
  rw [val_main_v25_apply, val_main_v24_apply, val_main_v21_apply, val_main_v20_apply, val_main_v23_apply,
    val_main_v22_apply, val_main_call0_v0_apply, val_main_call0_cst_apply]
  unfold Cert.KernelIdeal.Epilogue1.normalized
  rw [shapeCast_a_1a_apply]
  have e20 : idx_main_v20 i = ix2 (⟨(i 0).val, (i 0).isLt⟩ : Fin 100000) (0 : Fin 1) :=
    funext fun a => by match a with | ⟨0, _⟩ => rfl | ⟨1, _⟩ => rfl
  have e22 : idx_main_v22 (idx_main_v23 i) = ix1 (⟨(i 1).val, (i 1).isLt⟩ : Fin 128) :=
    funext fun a => by match a with | ⟨0, _⟩ => rfl
  rw [e20, e22]
  rfl

/-- The second product: the host's contraction of the hidden array with the second weights is the block product's sum. -/
theorem product2_eq (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) :
    Cert.KernelIdeal.Linear2.product (val_main_v25 (F := Ideal) x0 x1 x2 x3 x4) x5
      = val_main_v26 (F := Ideal) x0 x1 x2 x3 x4 x5 := by
  funext i
  rw [val_main_v26_apply]
  unfold Cert.KernelIdeal.Linear2.product
  refine Finset.sum_congr rfl fun k _ => ?_
  have el : lidx_main_v26 i k = ix2 (⟨(i 0).val, (i 0).isLt⟩ : Fin 100000) k :=
    funext fun a => by match a with | ⟨0, _⟩ => rfl | ⟨1, _⟩ => rfl
  have er : ridx_main_v26 i k = ix2 k (⟨(i 1).val, (i 1).isLt⟩ : Fin 64) :=
    funext fun a => by match a with | ⟨0, _⟩ => rfl | ⟨1, _⟩ => rfl
  rw [el, er]

/-- The reference broadcasts the degrees to a column once per layer; the two columns are one array. -/
theorem degreeColumn_eq (x2 : (⟨Cert.ReferenceIdeal.S1600000, .i32⟩ : BufTy).Contents (Elt Ideal)) : val_main_v37 (F := Ideal) x2 = val_main_v19 (F := Ideal) x2 := rfl

/-- The second normalization: the reference's broadcasts read the degree of the row and the bias of the column. -/
theorem normalized2_eq (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) :
    Cert.KernelIdeal.Epilogue2.normalized (val_main_v36 (F := Ideal) x0 x1 x2 x3 x4 x5) (val_main_v19 (F := Ideal) x2)
        (shapeCast Cert.KernelIdeal.S1x64 x6 Cert.KernelIdeal.Gen.shapeCasts_S64_S1x64)
      = val_main_v42 (F := Ideal) x0 x1 x2 x3 x4 x5 x6 := by
  funext i
  rw [val_main_v42_apply, val_main_v39_apply, val_main_v38_apply, val_main_v41_apply, val_main_v40_apply, degreeColumn_eq]
  unfold Cert.KernelIdeal.Epilogue2.normalized
  rw [shapeCast_a_1a_apply]
  have e38 : idx_main_v38 i = ix2 (⟨(i 0).val, (i 0).isLt⟩ : Fin 100000) (0 : Fin 1) :=
    funext fun a => by match a with | ⟨0, _⟩ => rfl | ⟨1, _⟩ => rfl
  have e40 : idx_main_v40 (idx_main_v41 i) = ix1 (⟨(i 1).val, (i 1).isLt⟩ : Fin 64) :=
    funext fun a => by match a with | ⟨0, _⟩ => rfl
  rw [e38, e40]
  rfl

end Cert.Bridge

end
-- ==== Proof.Chain.lean ====
/-
  The contents of the buffers along the idealized kernel's run, boundary by boundary.

  The run alternates stretches of host operations with the four regions.  No operation and no region writes an
  argument array, so at every boundary the arguments are as launched.  The column of reciprocal degrees is computed
  once, before the first region, and nothing writes it afterwards.  Each region's result array is the whole-array
  function of what the region finds in its inputs (a product, or a normalization), and each host stretch applies the
  same gather and sum the reference applies.  Read in order this gives, at the last boundary, the result buffer at the
  reference's last stage of the argument arrays.
-/
import proofs.«177691_j21474836480022_1_alg».proof.Proof.Bridge
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read Cert.Bridge

variable (m : (ℓ : Loc nD τ sig) → Buf (Elt Ideal) ℓ) (ρ : Dev nD → PrngReg)

/-! ## Before the first region -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results

/-- The column of reciprocal clamped in-degrees, as the host computes it from the destination indices. -/
theorem W1_v8 (c : Dev nD) : W1 m ρ c (Proc.devRef .tc main_v8) = val_main_v19 (F := Ideal) (m ((c : Thread nD τ).loc main_arg2)) := by
  show StableHlo.after hostOps0 (W0 m ρ c) (Proc.devRef .tc main_v8) = _
  after_results
  unfold val_main_v19 val_main_v7 val_main_v6 val_main_cst_2 val_main_v5 val_main_v4 val_main_cst_1 val_main_v3 val_main_v2
    val_main_v1 val_main_cst_0 val_main_v0 val_main_cst
  rfl

/-! ## After the first region: the first product -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_v8 (c : Dev nD) : W2 m ρ c (Proc.devRef .tc main_v8) = val_main_v19 (F := Ideal) (m ((c : Thread nD τ).loc main_arg2)) :=
  (W2_of_ne m ρ c main_v8 (by decide)).trans (W1_v8 m ρ c)

/-- The first region leaves the product of the features with the first weights. -/
theorem W2_v9 (c : Dev nD) : W2 m ρ c (Proc.devRef .tc main_v9) = val_main_v8 (F := Ideal) (m ((c : Thread nD τ).loc main_arg0)) (m ((c : Thread nD τ).loc main_arg3)) := by
  refine (W2_arr m ρ c 2).trans ?_
  rw [Linear1.final (V1 m ρ) c]
  show Linear1.product (W1 m ρ c (Proc.devRef .tc main_arg0)) (W1 m ρ c (Proc.devRef .tc main_arg3)) = _
  rw [W1_arg0 m ρ c, W1_arg3 m ρ c]
  exact product1_eq _ _

/-! ## Before the second region: the first gather and sum, the bias as a row -/

theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c
theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg5 (c : Dev nD) : W3 m ρ c (Proc.devRef .tc main_arg5) = m ((c : Thread nD τ).loc main_arg5) := by
  show StableHlo.after hostOps1 (W2 m ρ c) (Proc.devRef .tc main_arg5) = _
  after_results
  exact W2_arg5 m ρ c
theorem W3_arg6 (c : Dev nD) : W3 m ρ c (Proc.devRef .tc main_arg6) = m ((c : Thread nD τ).loc main_arg6) := by
  show StableHlo.after hostOps1 (W2 m ρ c) (Proc.devRef .tc main_arg6) = _
  after_results
  exact W2_arg6 m ρ c
theorem W3_v8 (c : Dev nD) : W3 m ρ c (Proc.devRef .tc main_v8) = val_main_v19 (F := Ideal) (m ((c : Thread nD τ).loc main_arg2)) := by
  show StableHlo.after hostOps1 (W2 m ρ c) (Proc.devRef .tc main_v8) = _
  after_results
  exact W2_v8 m ρ c

/-- The rows of the first product gathered at the sources and summed at the destinations. -/
theorem W3_v19 (c : Dev nD) : W3 m ρ c (Proc.devRef .tc main_v19)
    = val_main_v18 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v19) = _
  after_results
  rw [W2_arg1 m ρ c, W2_arg2 m ρ c, W2_v9 m ρ c]
  unfold val_main_v18 val_main_v17 val_main_v16 val_main_cst_4 val_main_v15 val_main_v14 val_main_v13 val_main_v12 val_main_v11
    val_main_c_3 val_main_v10 val_main_v9 val_main_c
  rfl

/-- The first bias vector as one row. -/
theorem W3_v20 (c : Dev nD) : W3 m ρ c (Proc.devRef .tc main_v20)
    = shapeCast S1x128 (m ((c : Thread nD τ).loc main_arg4)) shapeCasts_S128_S1x128 := by
  show StableHlo.after hostOps1 (W2 m ρ c) (Proc.devRef .tc main_v20) = _
  after_results
  rw [W2_arg4 m ρ c]
  rfl

/-! ## After the second region: the hidden array -/

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
/-- The degree column is an input of the second region: the region leaves it as it found it. -/
theorem W4_v8 (c : Dev nD) : W4 m ρ c (Proc.devRef .tc main_v8) = val_main_v19 (F := Ideal) (m ((c : Thread nD τ).loc main_arg2)) :=
  ((W4_arr m ρ c 1).trans (((dat1 (V3 m ρ) c).arrAt_in 1 rfl _).trans (A_eq1 (V3 m ρ) c 1))).trans (W3_v8 m ρ c)

/-- The second region leaves the normalized, clamped first aggregate. -/
theorem W4_v21 (c : Dev nD) : W4 m ρ c (Proc.devRef .tc main_v21)
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ?_
  rw [Epilogue1.final (V3 m ρ) c]
  show Epilogue1.normalized (W3 m ρ c (Proc.devRef .tc main_v19)) (W3 m ρ c (Proc.devRef .tc main_v8))
    (W3 m ρ c (Proc.devRef .tc main_v20)) = _
  rw [W3_v19 m ρ c, W3_v8 m ρ c, W3_v20 m ρ c]
  exact normalized1_eq _ _ _ _ _

/-! ## After the third region: the second product -/

theorem W5_arg1 (c : Dev nD) : W5 m ρ c (Proc.devRef .tc main_arg1) = m ((c : Thread nD τ).loc main_arg1) :=
  (W5_of_ne m ρ c main_arg1 (by decide)).trans (W4_arg1 m ρ c)
theorem W5_arg2 (c : Dev nD) : W5 m ρ c (Proc.devRef .tc main_arg2) = m ((c : Thread nD τ).loc main_arg2) :=
  (W5_of_ne m ρ c main_arg2 (by decide)).trans (W4_arg2 m ρ c)
theorem W5_arg6 (c : Dev nD) : W5 m ρ c (Proc.devRef .tc main_arg6) = m ((c : Thread nD τ).loc main_arg6) :=
  (W5_of_ne m ρ c main_arg6 (by decide)).trans (W4_arg6 m ρ c)
theorem W5_v8 (c : Dev nD) : W5 m ρ c (Proc.devRef .tc main_v8) = val_main_v19 (F := Ideal) (m ((c : Thread nD τ).loc main_arg2)) :=
  (W5_of_ne m ρ c main_v8 (by decide)).trans (W4_v8 m ρ c)

/-- The third region leaves the product of the hidden array with the second weights. -/
theorem W5_v22 (c : Dev nD) : W5 m ρ c (Proc.devRef .tc main_v22)
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W5_arr m ρ c 2).trans ?_
  rw [Linear2.final (V4 m ρ) c]
  show Linear2.product (W4 m ρ c (Proc.devRef .tc main_v21)) (W4 m ρ c (Proc.devRef .tc main_arg5)) = _
  rw [W4_v21 m ρ c, W4_arg5 m ρ c]
  exact product2_eq _ _ _ _ _ _

/-! ## Before the last region: the second gather and sum, the bias as a row -/

theorem W6_v8 (c : Dev nD) : W6 m ρ c (Proc.devRef .tc main_v8) = val_main_v19 (F := Ideal) (m ((c : Thread nD τ).loc main_arg2)) := by
  show StableHlo.after hostOps3 (W5 m ρ c) (Proc.devRef .tc main_v8) = _
  after_results
  exact W5_v8 m ρ c

/-- The rows of the second product gathered at the sources and summed at the destinations. -/
theorem W6_v32 (c : Dev nD) : W6 m ρ c (Proc.devRef .tc main_v32)
    = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W5 m ρ c) (Proc.devRef .tc main_v32) = _
  after_results
  rw [W5_arg1 m ρ c, W5_arg2 m ρ c, W5_v22 m ρ c]
  unfold val_main_v36 val_main_v35 val_main_v34 val_main_cst_7 val_main_v33 val_main_v32 val_main_v31 val_main_v30 val_main_v29
    val_main_c_6 val_main_v28 val_main_v27 val_main_c_5
  rfl

/-- The second bias vector as one row. -/
theorem W6_v33 (c : Dev nD) : W6 m ρ c (Proc.devRef .tc main_v33)
    = shapeCast S1x64 (m ((c : Thread nD τ).loc main_arg6)) shapeCasts_S64_S1x64 := by
  show StableHlo.after hostOps3 (W5 m ρ c) (Proc.devRef .tc main_v33) = _
  after_results
  rw [W5_arg6 m ρ c]
  rfl

/-! ## After the last region -/

/-- THE RESULT: at the last boundary the result buffer holds the reference's last stage of the argument arrays. -/
theorem result (c : Dev nD) : W7 m ρ c (Proc.devRef .tc main_v34)
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 3).trans ?_
  rw [Epilogue2.final (V6 m ρ) c]
  show Epilogue2.normalized (W6 m ρ c (Proc.devRef .tc main_v32)) (W6 m ρ c (Proc.devRef .tc main_v8))
    (W6 m ρ c (Proc.devRef .tc main_v33)) = _
  rw [W6_v32 m ρ c, W6_v8 m ρ c, W6_v33 m ρ c]
  exact normalized2_eq _ _ _ _ _ _ _

end Cert.KernelIdeal.Chain

end
-- ==== Proof.lean ====
/-
  A two-layer graph convolution (sum over in-neighbours, divided by the clamped in-degree, plus a bias; a clamp at
  zero between the layers), computed by a kernel program and by a reference program, is the same function of the
  seven argument arrays at the ideal values (the extended reals).

  The kernel program runs the two linear maps and the two normalizations as four block-tiled regions over twenty
  blocks of 5000 node rows each, and leaves the degree count and the two gather-and-sum steps to host operations; the
  reference program is host operations throughout.  Stage by stage the two programs apply the same operations:

  * the in-degree of every node (a sum of ones at the destination indices), clamped below at one, and its reciprocal —
    the same host operations in both programs;
  * X · W as a sum over the contracted index — the kernel's block product, whose blocks tile the result, against the
    host's contraction (the change of float format before the kernel's product is the identity at the ideal values);
  * the gather of source rows and their sum into destination rows — the same host operations applied to equal arrays,
    never opened;
  * agg(r, q) · dinv(r) + b(q) — the kernel's in-block broadcasts of a degree column and a bias row against the
    reference's whole-array broadcasts: the same entries are read.

  No algebraic law beyond reading the same sums and products is needed, so the finiteness precondition is not used.
  The word-level kernel and its idealization differ by no rewrite, so the preservation claim is trivial.
-/
import proofs.«177691_j21474836480022_1_alg».proof.Defs
import proofs.«177691_j21474836480022_1_alg».proof.Proof.Gen.Kernel
import proofs.«177691_j21474836480022_1_alg».proof.Proof.Gen.Kernel.Skeleton
import proofs.«177691_j21474836480022_1_alg».proof.Proof.Gen.Kernel.Launch
import proofs.«177691_j21474836480022_1_alg».proof.Proof.Gen.Kernel.Points
import proofs.«177691_j21474836480022_1_alg».proof.Proof.Gen.Kernel.Frame
import proofs.«177691_j21474836480022_1_alg».proof.Proof.Gen.KernelIdeal
import proofs.«177691_j21474836480022_1_alg».proof.Proof.Gen.KernelIdeal.Skeleton
import proofs.«177691_j21474836480022_1_alg».proof.Proof.Gen.KernelIdeal.Launch
import proofs.«177691_j21474836480022_1_alg».proof.Proof.Gen.KernelIdeal.Points
import proofs.«177691_j21474836480022_1_alg».proof.Proof.Gen.KernelIdeal.Frame
import proofs.«177691_j21474836480022_1_alg».proof.Proof.Gen.ReferenceIdeal
import proofs.«177691_j21474836480022_1_alg».proof.Proof.Gen.ReferenceIdeal.Run
import proofs.«177691_j21474836480022_1_alg».proof.Proof.Gen.ReferenceIdeal.Read
import proofs.«177691_j21474836480022_1_alg».proof.Proof.Gen.Pre_finite_inputs
import proofs.«177691_j21474836480022_1_alg».proof.Proof.RunValue
import proofs.«177691_j21474836480022_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result at the reference's last stage of the (agreeing) argument arrays. -/
theorem algebraic : Cert.algebraic_KernelIdeal_ReferenceIdeal := by
  intro m ρ m' ρ' _ hagree
  refine ⟨fun c => Cert.ReferenceIdeal.Read.val_main_v42 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [e0, e1, e2, e3, e4, e5, e6]
    exact Cert.ReferenceIdeal.Read.val_main_v42_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
